-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x128x32 : Shape := ⟨3, ![3, 128, 32]⟩
abbrev S32000x256 : Shape := ⟨2, ![32000, 256]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel

variable [Facts]

def fn {F : FTy → Type} [FloatOps F] (main_arg0 : IVec S3x128x32 32) (main_arg1 : FVec F S32000x256 .f32) : IVec S_ 1 :=
  let main_v0 : FVec F S32000x256 .f32 := Host.absf main_arg1
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  main_v3
-- ==== Kernel.lean ====
abbrev S3x128x32 : Shape := ⟨3, ![3, 128, 32]⟩
abbrev S32000x256 : Shape := ⟨2, ![32000, 256]⟩
abbrev S3x4096x1 : Shape := ⟨3, ![3, 4096, 1]⟩
abbrev S1x4096x1 : Shape := ⟨3, ![1, 4096, 1]⟩
abbrev S4096x1 : Shape := ⟨2, ![4096, 1]⟩
abbrev S4096x256 : Shape := ⟨2, ![4096, 256]⟩
abbrev S512x1 : Shape := ⟨2, ![512, 1]⟩
abbrev S1280x256 : Shape := ⟨2, ![1280, 256]⟩
abbrev S512x256 : Shape := ⟨2, ![512, 256]⟩
abbrev S1x1280 : Shape := ⟨2, ![1, 1280]⟩
abbrev S512x1280 : Shape := ⟨2, ![512, 1280]⟩
abbrev S128x32x256 : Shape := ⟨3, ![128, 32, 256]⟩

abbrev nBuf : Space → Nat
  | .hbm => 12
  | .vmem => 11
  | .smem => 0
  | _ => 0

abbrev bufTy : (tb : Table) → Fin (tcTables nBuf tb) → BufTy
  | .hbm, ⟨0, _⟩ => ⟨S3x128x32, .i32⟩
  | .hbm, ⟨1, _⟩ => ⟨S32000x256, .f32⟩
  | .hbm, ⟨2, _⟩ => ⟨S3x4096x1, .i32⟩
  | .hbm, ⟨3, _⟩ => ⟨S1x4096x1, .i32⟩
  | .hbm, ⟨4, _⟩ => ⟨S4096x1, .i32⟩
  | .hbm, ⟨5, _⟩ => ⟨S1x4096x1, .i32⟩
  | .hbm, ⟨6, _⟩ => ⟨S4096x1, .i32⟩
  | .hbm, ⟨7, _⟩ => ⟨S1x4096x1, .i32⟩
  | .hbm, ⟨8, _⟩ => ⟨S4096x1, .i32⟩
  | .hbm, ⟨9, _⟩ => ⟨S32000x256, .bf16⟩
  | .hbm, ⟨10, _⟩ => ⟨S4096x256, .f32⟩
  | .hbm, ⟨11, _⟩ => ⟨S128x32x256, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S1280x256, .bf16⟩
  | .local _ .vmem, ⟨7, _⟩ => ⟨S1280x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S3x128x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v41 : BitVec 1 := Scalar.cmpi .eq arg1 c24_i32
  let v42 : BitVec 32 := Scalar.extui v41
  let c0_i32_12 : BitVec 32 := 0#32
  let v43 : BitVec 1 := Scalar.cmpi .ne v42 c0_i32_12
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S3x128x32_S3x4096x1 : S3x128x32.ShapeCasts S3x4096x1
  slices_S3x4096x1_S1x4096x1_0_0_0 : S3x4096x1.Slices ![0, 0, 0] S1x4096x1
  shapeCasts_S1x4096x1_S4096x1 : S1x4096x1.ShapeCasts S4096x1
  slices_S3x4096x1_S1x4096x1_1_0_0 : S3x4096x1.Slices ![1, 0, 0] S1x4096x1
  slices_S3x4096x1_S1x4096x1_2_0_0 : S3x4096x1.Slices ![2, 0, 0] S1x4096x1
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S1x1280_d1_w32 : S1x1280.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1280 : S512x1.Broadcasts S512x1280
  broadcasts_S1x1280_S512x1280 : S1x1280.Broadcasts S512x1280
  natLt_1_32 : 1 < 32
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  shapeCasts_S4096x256_S128x32x256 : S4096x256.ShapeCasts S128x32x256
  dot_S512x1280_S1280x256_S512x256_1_0_0_1_n_n_wf : DotDims.WF S512x1280 S1280x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S32000x256.size a
  hwx0_3 : ∀ i : grid0.Coords, EltTy.bits .bf16 = 32 ∨ (Rect.block (s := S32000x256) S1280x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S512x1280_S1280x256_S512x256_1_0_0_1_n_n : DotDims S512x1280 S1280x256 S512x256 where
  lhsContracting := [1]
  rhsContracting := [0]
  lhsNonContracting := [0]
  rhsNonContracting := [1]
  lhsBatch := []
  rhsBatch := []
  wf := dot_S512x1280_S1280x256_S512x256_1_0_0_1_n_n_wf

abbrev win0_0 : Pipeline.Window sig grid0 :=
  Pipeline.Window.ofSpec (Memref.whole main_v2) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1280x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S3x128x32 : Shape := ⟨3, ![3, 128, 32]⟩
abbrev S32000x256 : Shape := ⟨2, ![32000, 256]⟩
abbrev S_ : Shape := ⟨0, ![]⟩
abbrev S128x32x32000 : Shape := ⟨3, ![128, 32, 32000]⟩
abbrev S1x128x32 : Shape := ⟨3, ![1, 128, 32]⟩
abbrev S128x32 : Shape := ⟨2, ![128, 32]⟩
abbrev S128x32x1 : Shape := ⟨3, ![128, 32, 1]⟩
abbrev S1x1x32000 : Shape := ⟨3, ![1, 1, 32000]⟩
abbrev S128x32x256 : Shape := ⟨3, ![128, 32, 256]⟩

abbrev nBuf : Space → Nat
  | .hbm => 32
  | .vmem => 0
  | .smem => 0
  | _ => 0

abbrev bufTy : (tb : Table) → Fin (tcTables nBuf tb) → BufTy
  | .hbm, ⟨0, _⟩ => ⟨S3x128x32, .i32⟩
  | .hbm, ⟨1, _⟩ => ⟨S32000x256, .f32⟩
  | .hbm, ⟨2, _⟩ => ⟨S_, .f32⟩
  | .hbm, ⟨3, _⟩ => ⟨S128x32x32000, .f32⟩
  | .hbm, ⟨4, _⟩ => ⟨S1x128x32, .i32⟩
  | .hbm, ⟨5, _⟩ => ⟨S128x32, .i32⟩
  | .hbm, ⟨6, _⟩ => ⟨S128x32x1, .i32⟩
  | .hbm, ⟨7, _⟩ => ⟨S1x1x32000, .i32⟩
  | .hbm, ⟨8, _⟩ => ⟨S128x32x32000, .i32⟩
  | .hbm, ⟨9, _⟩ => ⟨S128x32x32000, .i32⟩
  | .hbm, ⟨10, _⟩ => ⟨S128x32x32000, .i1⟩
  | .hbm, ⟨11, _⟩ => ⟨S128x32x32000, .f32⟩
  | .hbm, ⟨12, _⟩ => ⟨S128x32x32000, .f32⟩
  | .hbm, ⟨13, _⟩ => ⟨S1x128x32, .i32⟩
  | .hbm, ⟨14, _⟩ => ⟨S128x32, .i32⟩
  | .hbm, ⟨15, _⟩ => ⟨S128x32x1, .i32⟩
  | .hbm, ⟨16, _⟩ => ⟨S1x1x32000, .i32⟩
  | .hbm, ⟨17, _⟩ => ⟨S128x32x32000, .i32⟩
  | .hbm, ⟨18, _⟩ => ⟨S128x32x32000, .i32⟩
  | .hbm, ⟨19, _⟩ => ⟨S128x32x32000, .i1⟩
  | .hbm, ⟨20, _⟩ => ⟨S128x32x32000, .f32⟩
  | .hbm, ⟨21, _⟩ => ⟨S128x32x32000, .f32⟩
  | .hbm, ⟨22, _⟩ => ⟨S1x128x32, .i32⟩
  | .hbm, ⟨23, _⟩ => ⟨S128x32, .i32⟩
  | .hbm, ⟨24, _⟩ => ⟨S128x32x1, .i32⟩
  | .hbm, ⟨25, _⟩ => ⟨S1x1x32000, .i32⟩
  | .hbm, ⟨26, _⟩ => ⟨S128x32x32000, .i32⟩
  | .hbm, ⟨27, _⟩ => ⟨S128x32x32000, .i32⟩
  | .hbm, ⟨28, _⟩ => ⟨S128x32x32000, .i1⟩
  | .hbm, ⟨29, _⟩ => ⟨S128x32x32000, .f32⟩
  | .hbm, ⟨30, _⟩ => ⟨S128x32x32000, .f32⟩
  | .hbm, ⟨31, _⟩ => ⟨S128x32x256, .f32⟩
  | _, _ => ⟨S3x128x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S128x32x32000 : S_.BroadcastsInDim S128x32x32000 (![] : Fin 0 → Fin S128x32x32000.rank)
  slices_S3x128x32_S1x128x32_0_0_0 : S3x128x32.Slices ![0, 0, 0] S1x128x32
  shapeCasts_S1x128x32_S128x32 : S1x128x32.ShapeCasts S128x32
  bcast_S128x32_S128x32x1_0_1 : S128x32.BroadcastsInDim S128x32x1 (![0, 1] : Fin 2 → Fin S128x32x1.rank)
  bcast_S128x32x1_S128x32x32000_0_1_2 : S128x32x1.BroadcastsInDim S128x32x32000 (![0, 1, 2] : Fin 3 → Fin S128x32x32000.rank)
  bcast_S1x1x32000_S128x32x32000_0_1_2 : S1x1x32000.BroadcastsInDim S128x32x32000 (![0, 1, 2] : Fin 3 → Fin S128x32x32000.rank)
  slices_S3x128x32_S1x128x32_1_0_0 : S3x128x32.Slices ![1, 0, 0] S1x128x32
  slices_S3x128x32_S1x128x32_2_0_0 : S3x128x32.Slices ![2, 0, 0] S1x128x32
  dot_S128x32x32000_S32000x256_S128x32x256_2_0_01_1_n_n_wf : DotDims.WF S128x32x32000 S32000x256 S128x32x256 [2] [0] [0, 1] [1] [] []

variable [Facts₀]

def dot_S128x32x32000_S32000x256_S128x32x256_2_0_01_1_n_n : DotDims S128x32x32000 S32000x256 S128x32x256 where
  lhsContracting := [2]
  rhsContracting := [0]
  lhsNonContracting := [0, 1]
  rhsNonContracting := [1]
  lhsBatch := []
  rhsBatch := []
  wf := dot_S128x32x32000_S32000x256_S128x32x256_2_0_01_1_n_n_wf

class Facts : Prop extends Facts₀ where

variable [Facts]
-- ==== Proof.Pieces.lean ====
/-
  What the body leaves behind, case by case, as values.

  The body runs in one of three ways. At the first vocabulary block of a row tile it first stores zeros into the
  accumulator, reads them back, and stores zeros plus the block's product. At a middle block it reads the accumulator as
  the block before left it and stores that plus the block's product. At the last block it does the same and then copies
  the accumulator into the output tile. In every case each buffer ends covered by one whole-tile store, so what it holds
  is that store's value: the step function of Payload.lean applied to the loaded blocks, with the old accumulator
  either zero (first block) or what the block before left.
-/
import proofs.«108991_j11072425689872_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First block of a row tile: the accumulator ends at the step applied to the zero tile. -/
theorem sout_A (c : Dev nD) (i : grid0.Coords) (a2 : Memref sig .tc .vmem S512x1 .i32) (h2 : a2.IsWhole) (a3 : Memref sig .tc .vmem S512x1 .i32) (h3 : a3.IsWhole) (a4 : Memref sig .tc .vmem S512x1 .i32) (h4 : a4.IsWhole) (a5 : Memref sig .tc .vmem S1280x256 .bf16) (h5 : a5.IsWhole) (a6 : Memref sig .tc .vmem S512x256 .f32) (h6 : a6.IsWhole) (a7 : Memref sig .tc .vmem S512x256 .f32) (h7 : a7.IsWhole) (hc0 : cond0_0 i) (hc1 : ¬cond0_1 i)
    (x0 x1 x2 : Vec F S512x1 .i32) (x3 : Vec F S1280x256 .bf16) :
    sout0_A_0 c i a2 h2 a3 h3 a4 h4 a5 h5 a6 h6 a7 h7 hc0 hc1 x0 x1 x2 x3 = k0_pay2 i x0 x1 x2 (k0_pay1 (F := F)) x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x256) hz]
  simp only [View.readAt_eq_ld, h2.read_unread, h3.read_unread, h4.read_unread, h5.read_unread, h7.read_unread,
    View.readCov_unit_zero (S := S512x256) _ hz,
    View.ld_unit_zero (S := S512x1) hz, View.ld_unit_zero (S := S512x256) hz, View.ld_unit_zero (S := S1280x256) hz]

/-- A middle block: the accumulator ends at the step applied to what the block before left. -/
theorem sout_B (c : Dev nD) (i : grid0.Coords) (a2 : Memref sig .tc .vmem S512x1 .i32) (h2 : a2.IsWhole) (a3 : Memref sig .tc .vmem S512x1 .i32) (h3 : a3.IsWhole) (a4 : Memref sig .tc .vmem S512x1 .i32) (h4 : a4.IsWhole) (a5 : Memref sig .tc .vmem S1280x256 .bf16) (h5 : a5.IsWhole) (a6 : Memref sig .tc .vmem S512x256 .f32) (h6 : a6.IsWhole) (a7 : Memref sig .tc .vmem S512x256 .f32) (h7 : a7.IsWhole) (hc0 : ¬cond0_0 i) (hc1 : ¬cond0_1 i)
    (x0 x1 x2 : Vec F S512x1 .i32) (x3 : Vec F S1280x256 .bf16) (xs0 : Vec F S512x256 .f32) :
    sout0_B_0 c i a2 h2 a3 h3 a4 h4 a5 h5 a6 h6 a7 h7 hc0 hc1 x0 x1 x2 x3 xs0 = k0_pay2 i x0 x1 x2 xs0 x3 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.readCov_unit_zero (S := S512x256) _ hz,
    View.ld_unit_zero (S := S512x1) hz, View.ld_unit_zero (S := S512x256) hz, View.ld_unit_zero (S := S1280x256) hz]

/-- The last block: the accumulator ends the same way, -/
theorem sout_C (c : Dev nD) (i : grid0.Coords) (a2 : Memref sig .tc .vmem S512x1 .i32) (h2 : a2.IsWhole) (a3 : Memref sig .tc .vmem S512x1 .i32) (h3 : a3.IsWhole) (a4 : Memref sig .tc .vmem S512x1 .i32) (h4 : a4.IsWhole) (a5 : Memref sig .tc .vmem S1280x256 .bf16) (h5 : a5.IsWhole) (a6 : Memref sig .tc .vmem S512x256 .f32) (h6 : a6.IsWhole) (a7 : Memref sig .tc .vmem S512x256 .f32) (h7 : a7.IsWhole) (hc0 : ¬cond0_0 i) (hc1 : cond0_1 i)
    (x0 x1 x2 : Vec F S512x1 .i32) (x3 : Vec F S1280x256 .bf16) (xs0 : Vec F S512x256 .f32) :
    sout0_C_0 c i a2 h2 a3 h3 a4 h4 a5 h5 a6 h6 a7 h7 hc0 hc1 x0 x1 x2 x3 xs0 = k0_pay2 i x0 x1 x2 xs0 x3 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.readCov_unit_zero (S := S512x256) _ hz,
    View.ld_unit_zero (S := S512x1) hz, View.ld_unit_zero (S := S512x256) hz, View.ld_unit_zero (S := S1280x256) hz]

/-- and the output tile ends holding the same value, copied from the accumulator. -/
theorem out_C (c : Dev nD) (i : grid0.Coords) (a2 : Memref sig .tc .vmem S512x1 .i32) (h2 : a2.IsWhole) (a3 : Memref sig .tc .vmem S512x1 .i32) (h3 : a3.IsWhole) (a4 : Memref sig .tc .vmem S512x1 .i32) (h4 : a4.IsWhole) (a5 : Memref sig .tc .vmem S1280x256 .bf16) (h5 : a5.IsWhole) (a6 : Memref sig .tc .vmem S512x256 .f32) (h6 : a6.IsWhole) (a7 : Memref sig .tc .vmem S512x256 .f32) (h7 : a7.IsWhole) (hc0 : ¬cond0_0 i) (hc1 : cond0_1 i)
    (x0 x1 x2 : Vec F S512x1 .i32) (x3 : Vec F S1280x256 .bf16) (xs0 : Vec F S512x256 .f32) :
    out0_C_4 c i a2 h2 a3 h3 a4 h4 a5 h5 a6 h6 a7 h7 hc0 hc1 x0 x1 x2 x3 xs0 = k0_pay2 i x0 x1 x2 xs0 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.readCov_unit_zero (S := S512x256) _ hz,
    View.ld_unit_zero (S := S512x1) hz, View.ld_unit_zero (S := S512x256) hz, View.ld_unit_zero (S := S1280x256) hz]

end Cert.KernelIdeal.Pieces

end
-- ==== Proof.NHot.lean ====
/-
  The n-hot weight of a position and a vocabulary entry, as a number, and the embedding it selects.

  A position carries three token words. Its weight on a vocabulary word is the largest of the three one-hot bits
  "this token's word is that vocabulary word", each bit the number 0 or 1: the weight is 1 when some token hits the
  entry and 0 otherwise, however many of the three hit it. The embedding of a position is the sum, over the whole
  vocabulary, of the weight times the entry's row of the table.

  Three small facts used on both sides: a one-hot bit widened to a 32-bit word and read signed is the bit read
  unsigned; a weight is never negative, so the larger of 0 and a bit is the bit; and the vocabulary word of entry
  `j` of block `k` of 1280 entries, computed by wrapping 32-bit arithmetic as `k * 1280 + j`, is the word of the
  natural number `k * 1280 + j`.
-/
import Idealize.ShloMosaic.PureOps.Ideal
import Idealize.ShloMosaic.PureOps.Ideal.Laws
import Idealize.ShloMosaic.Lib.ValueIdx

noncomputable section

namespace NGram

open Idealize.ShloMosaic Idealize.ShloMosaic.ValueIdx

/-- The one-hot bit of a token word against a vocabulary word, as an extended real: 1 when the words are equal. -/
def bit (a v : BitVec 32) : EReal := (((IntOp.cmpi .eq a v).toNat : ℝ) : EReal)

theorem bit_nonneg (a v : BitVec 32) : (0 : EReal) ≤ bit a v := by
  unfold bit
  exact EReal.coe_nonneg.mpr (Nat.cast_nonneg _)

/-- The weight of a position with token words `a0 a1 a2` on the vocabulary word `v`. -/
def nhot (a0 a1 a2 v : BitVec 32) : EReal := max (max (bit a0 v) (bit a1 v)) (bit a2 v)

/-- A one-bit word widened with zeros to 32 bits and read as a signed integer is the bit read as a natural. -/
theorem setWidth_toInt (b : BitVec 1) : (b.setWidth 32).toInt = (b.toNat : ℤ) := by
  rcases BitVec.eq_zero_or_eq_one b with rfl | rfl <;> decide

/-- So the signed conversion of the widened bit and the unsigned conversion of the bit are one number. -/
theorem signed_widened_bit (a v : BitVec 32) :
    ((((IntOp.cmpi .eq a v).setWidth 32).toInt : ℝ) : EReal) = bit a v := by
  unfold bit
  rw [setWidth_toInt]
  norm_cast

/-- The larger of zero and a one-hot bit is the bit. -/
theorem max_zero_bit (a v : BitVec 32) : max (0 : EReal) (bit a v) = bit a v :=
  max_eq_right (bit_nonneg a v)

/-- The vocabulary word of entry `j` of block `k`, in wrapping 32-bit arithmetic. -/
theorem vocab_word (k j : ℕ) :
    BitVec.ofNat 32 k * 1280#32 + BitVec.ofNat 32 j = BitVec.ofNat 32 (k * 1280 + j) := by
  rw [BitVec.ofNat_add, BitVec.ofNat_mul]

/-- The embedding: for tokens `x0 : [3, 128, 32]` and a table `x1 : [32000, 256]`, entry `(s, b, d)` is the sum over
    the vocabulary of the weight of position `(s, b)` times the table's entry `(v, d)`. -/
def embed (x0 : (⟨3, ![3, 128, 32]⟩ : Shape).Idx → BitVec 32) (x1 : (⟨2, ![32000, 256]⟩ : Shape).Idx → EReal) :
    (⟨3, ![128, 32, 256]⟩ : Shape).Idx → EReal := fun i =>
  ∑ v : Fin 32000,
    nhot (x0 (ix3 (0 : Fin 3) (i 0) (i 1))) (x0 (ix3 (1 : Fin 3) (i 0) (i 1))) (x0 (ix3 (2 : Fin 3) (i 0) (i 1)))
      (BitVec.ofNat 32 v.val) * x1 (ix2 v (i 2))

end NGram

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Payload.lean ====
/-
  What one grid point adds to the accumulator, entry by entry.

  At grid point `(a, k)` the body holds the token columns of 512 positions and block `k` of the table (1280
  vocabulary entries by 256 features). It builds the row of the block's vocabulary words `k * 1280 + j`, compares each
  position's three token words with every word of the row, turns each comparison into the number 0 or 1, takes the
  largest of the three per (position, entry), multiplies that 512 x 1280 weight matrix with the table block, and adds the
  product to what the accumulator held. Read at position `r` and feature `d`:

      new(r, d) = old(r, d) + sum over j < 1280 of weight(r, k * 1280 + j) * block(j, d)

  with the weight of NHot.lean. Changes of float format are the identity on extended reals, and the product into a zero
  accumulator is the plain sum over the contracted axis.
-/
import proofs.«108991_j11072425689872_1_alg».proof.Proof.Gen.KernelIdeal.Skeleton
import proofs.«108991_j11072425689872_1_alg».proof.Proof.NHot
import proofs.«108991_j11072425689872_1_alg».proof.Proof.LibLayout
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen NGram

/-- The vocabulary words of block `k = i 1`, as a row of 1280 words. -/
def vocabRow (i : grid0.Coords) : IVec S1x1280 32 :=
  addi (broadcast S1x1280 (Scalar.muli (BitVec.ofNat 32 (i 1).val) 1280#32)) (iota .tc S1x1280 32 [1] iota_S1x1280_d1_w32)

/-- One token column against the block's vocabulary row: the 512 x 1280 matrix of one-hot numbers. -/
def hotOf (i : grid0.Coords) (x : Vec Ideal S512x1 .i32) : FVec Ideal S512x1280 .bf16 :=
  truncf .bf16 (sitofp .f32 (extui 32 (cmpi .eq
    (broadcastTo S512x1280 (shapeCast S512x1 x shapeCasts_S512x1_S512x1) broadcasts_S512x1_S512x1280)
    (broadcastTo S512x1280 (vocabRow i) broadcasts_S1x1280_S512x1280)) natLt_1_32)) bitsLt_bf16_f32

/-- The weight matrix of the point: the largest of the three one-hot matrices, entry by entry. -/
def weights (i : grid0.Coords) (x0 x1 x2 : Vec Ideal S512x1 .i32) : FVec Ideal S512x1280 .bf16 :=
  maximumf (maximumf (hotOf i x0) (hotOf i x1)) (hotOf i x2)

/-- The printed payload is the accumulator plus the weight matrix times the table block. -/
theorem pay2_eq (i : grid0.Coords) (x0 x1 x2 : Vec Ideal S512x1 .i32) (xs : Vec Ideal S512x256 .f32)
    (x3 : Vec Ideal S1280x256 .bf16) :
    k0_pay2 (F := Ideal) i x0 x1 x2 xs x3
      = shapeCast S512x256 (addf xs (matmul dot_S512x1280_S1280x256_S512x256_1_0_0_1_n_n none (weights i x0 x1 x2)
          (shapeCast S1280x256 x3 shapeCasts_S1280x256_S1280x256 : FVec Ideal S1280x256 .bf16) (constant S512x256 .f32 0x00000000#32)))
          shapeCasts_S512x256_S512x256 := rfl

/-- Entry `j` of the vocabulary row is the word of `k * 1280 + j`. -/
theorem vocabRow_apply (i : grid0.Coords) (u : Fin 1) (j : Fin 1280) :
    vocabRow i (ix2 u j) = BitVec.ofNat 32 ((i 1).val * 1280 + j.val) := by
  unfold vocabRow
  show (BitVec.ofNat 32 (i 1).val * 1280#32) + iota .tc S1x1280 32 [1] iota_S1x1280_d1_w32 (ix2 u j) = _
  rw [iota_single_apply]
  exact vocab_word _ _

/-- The row repeated down the 512 positions reads, at `(r, j)`, its entry `j`. -/
theorem rowBroadcast_apply (v : IVec S1x1280 32) (r : Fin 512) (j : Fin 1280) :
    broadcastTo S512x1280 v broadcasts_S1x1280_S512x1280 (ix2 r j) = v (ix2 (0 : Fin 1) j) := by
  refine broadcastTo_apply v broadcasts_S1x1280_S512x1280 (ix2 r j) (ix2 (0 : Fin 1) j) fun ax => ?_
  match ax with
  | ⟨0, _⟩ => rfl
  | ⟨1, _⟩ => rfl

/-- A one-hot matrix at `(r, j)` is the one-hot bit of position `r`'s token word against the word of `k * 1280 + j`. -/
theorem hotOf_apply (i : grid0.Coords) (x : Vec Ideal S512x1 .i32) (r : Fin 512) (j : Fin 1280) :
    hotOf i x (ix2 r j) = bit (x (ix2 r (0 : Fin 1))) (BitVec.ofNat 32 ((i 1).val * 1280 + j.val)) := by
  unfold hotOf
  rw [truncf_apply, sitofp_apply, extui_apply]
  show ((((IntOp.cmpi .eq _ _).setWidth 32).toInt : ℝ) : EReal) = _
  rw [LibLayout.broadcastTo_a1_ab_apply, rowBroadcast_apply, vocabRow_apply, shapeCast_self]
  exact signed_widened_bit _ _

/-- The weight matrix at `(r, j)` is the n-hot weight of position `r` on the word of `k * 1280 + j`. -/
theorem weights_apply (i : grid0.Coords) (x0 x1 x2 : Vec Ideal S512x1 .i32) (r : Fin 512) (j : Fin 1280) :
    weights i x0 x1 x2 (ix2 r j)
      = nhot (x0 (ix2 r (0 : Fin 1))) (x1 (ix2 r (0 : Fin 1))) (x2 (ix2 r (0 : Fin 1)))
          (BitVec.ofNat 32 ((i 1).val * 1280 + j.val)) := by
  unfold weights nhot
  rw [maximumf_apply, maximumf_apply, hotOf_apply, hotOf_apply, hotOf_apply]

/-- The left operand's index at output `(r, d)` keeps the row `r`; -/
theorem lhs_row (y : S512x256.Idx) (q : dot_S512x1280_S1280x256_S512x256_1_0_0_1_n_n.contr.Idx) :
    (dot_S512x1280_S1280x256_S512x256_1_0_0_1_n_n.lhsIdx y q 0).val = (y 0).val := by
  unfold DotDims.lhsIdx
  rw [dif_neg (show ¬(0 : Fin S512x1280.rank) ∈ dot_S512x1280_S1280x256_S512x256_1_0_0_1_n_n.lhsBatch by decide),
    dif_pos (show (0 : Fin S512x1280.rank) ∈ dot_S512x1280_S1280x256_S512x256_1_0_0_1_n_n.lhsNonContracting by decide)]
  rfl

/-- the right operand's keeps the column `d`. -/
theorem rhs_col (y : S512x256.Idx) (q : dot_S512x1280_S1280x256_S512x256_1_0_0_1_n_n.contr.Idx) :
    (dot_S512x1280_S1280x256_S512x256_1_0_0_1_n_n.rhsIdx y q 1).val = (y 1).val := by
  unfold DotDims.rhsIdx
  rw [dif_neg (show ¬(1 : Fin S1280x256.rank) ∈ dot_S512x1280_S1280x256_S512x256_1_0_0_1_n_n.rhsBatch by decide),
    dif_pos (show (1 : Fin S1280x256.rank) ∈ dot_S512x1280_S1280x256_S512x256_1_0_0_1_n_n.rhsNonContracting by decide)]
  rfl

/-- The product of a 512 x 1280 matrix and a 1280 x 256 matrix into a zero accumulator, at `(r, d)`: the sum over the
    1280 contracted entries of the products. -/
theorem product_apply (A : FVec Ideal S512x1280 .bf16) (B : FVec Ideal S1280x256 .bf16) (r : Fin 512) (d : Fin 256) :
    matmul dot_S512x1280_S1280x256_S512x256_1_0_0_1_n_n none A B (constant S512x256 .f32 0x00000000#32) (ix2 r d)
      = ∑ j : Fin 1280, A (ix2 r j) * B (ix2 j d) := by
  simp only [matmul]
  rw [Ideal.matmul_constant_zero_apply,
    ← Equiv.sum_comp (ValueIdx.contrEquiv1 dot_S512x1280_S1280x256_S512x256_1_0_0_1_n_n 1280 rfl rfl).symm]
  refine Finset.sum_congr rfl fun k _ => ?_
  have hk := ValueIdx.contrEquiv1_symm_val dot_S512x1280_S1280x256_S512x256_1_0_0_1_n_n 1280 rfl rfl k
  have el : dot_S512x1280_S1280x256_S512x256_1_0_0_1_n_n.lhsIdx (ix2 r d) ((ValueIdx.contrEquiv1 dot_S512x1280_S1280x256_S512x256_1_0_0_1_n_n 1280 rfl rfl).symm k) = ix2 r k :=
    funext fun a => Fin.ext (by
      match a with
      | ⟨0, _⟩ => exact lhs_row _ _
      | ⟨1, _⟩ => exact (dot_S512x1280_S1280x256_S512x256_1_0_0_1_n_n.lhsIdx_val_of_single rfl _ _).trans hk)
  have er : dot_S512x1280_S1280x256_S512x256_1_0_0_1_n_n.rhsIdx (ix2 r d) ((ValueIdx.contrEquiv1 dot_S512x1280_S1280x256_S512x256_1_0_0_1_n_n 1280 rfl rfl).symm k) = ix2 k d :=
    funext fun a => Fin.ext (by
      match a with
      | ⟨0, _⟩ => exact (dot_S512x1280_S1280x256_S512x256_1_0_0_1_n_n.rhsIdx_val_of_single rfl _ _).trans hk
      | ⟨1, _⟩ => exact rhs_col _ _)
  rw [el, er]

/-- THE POINT'S STEP at an entry: what the body stores into the accumulator at `(r, d)` is what it held there plus the
    block's share of the embedding of position `r`. -/
theorem pay2_apply (i : grid0.Coords) (x0 x1 x2 : Vec Ideal S512x1 .i32) (xs : Vec Ideal S512x256 .f32)
    (x3 : Vec Ideal S1280x256 .bf16) (r : Fin 512) (d : Fin 256) :
    k0_pay2 (F := Ideal) i x0 x1 x2 xs x3 (ix2 r d)
      = xs (ix2 r d) + ∑ j : Fin 1280,
          nhot (x0 (ix2 r (0 : Fin 1))) (x1 (ix2 r (0 : Fin 1))) (x2 (ix2 r (0 : Fin 1)))
            (BitVec.ofNat 32 ((i 1).val * 1280 + j.val)) * x3 (ix2 j d) := by
  rw [pay2_eq, shapeCast_self, addf_apply, product_apply]
  refine congrArg (xs (ix2 r d) + ·) (Finset.sum_congr rfl fun j _ => ?_)
  rw [weights_apply, shapeCast_self]

/-- The reset value is zero at every entry. -/
theorem pay1_apply (y : S512x256.Idx) : k0_pay1 (F := Ideal) y = 0 := by
  unfold k0_pay1
  rw [shapeCast_self]
  exact Ideal.ofBits_zero_f32

end Cert.KernelIdeal.Pay

end
-- ==== Proof.LibSumBlocks.lean ====
/-
  A sum over all rows as a sum over row blocks.

  An array of `A·B` rows walked in `A` consecutive blocks of `B` rows: the sum over all rows of any quantity in a
  commutative monoid is the sum over the blocks of the sums inside each block, row `k·B + p` being row `p` of block
  `k`. A second form has the block index run over a range of naturals with a guard, the shape an induction over
  grid points produces. Generic in `A`, `B` and the monoid.
-/
import Mathlib.Algebra.BigOperators.Fin
import Mathlib.Logic.Equiv.Fin.Basic

namespace Cert.LibSumBlocks

open scoped BigOperators

variable {M : Type*} [AddCommMonoid M]

theorem row_lt {A B : ℕ} (k : Fin A) (p : Fin B) : k.val * B + p.val < A * B := by
  have hk := k.isLt
  have hp := p.isLt
  have h1 : k.val * B + p.val < k.val * B + B := by omega
  have h2 : k.val * B + B = (k.val + 1) * B := (Nat.succ_mul k.val B).symm
  have h3 : (k.val + 1) * B ≤ A * B := Nat.mul_le_mul_right B hk
  omega

/-- The sum over all `A·B` rows is the sum over blocks of the sums inside the blocks. -/
theorem sum_blocks (A B : ℕ) (f : Fin (A * B) → M) :
    ∑ r : Fin (A * B), f r = ∑ k : Fin A, ∑ p : Fin B, f ⟨k.val * B + p.val, row_lt k p⟩ := by
  rw [← Equiv.sum_comp finProdFinEquiv f, Fintype.sum_prod_type]
  refine Finset.sum_congr rfl fun k _ => Finset.sum_congr rfl fun p _ => congrArg f (Fin.ext ?_)
  show p.val + B * k.val = k.val * B + p.val
  rw [Nat.mul_comm, Nat.add_comm]

/-- The same with the block index running over a range of naturals under a guard. -/
theorem sum_blocks_range (A B : ℕ) (f : Fin (A * B) → M) :
    ∑ r : Fin (A * B), f r
      = ∑ k ∈ Finset.range A, if h : k < A then ∑ p : Fin B, f ⟨k * B + p.val, row_lt ⟨k, h⟩ p⟩ else 0 := by
  rw [sum_blocks, Finset.sum_range]
  refine Finset.sum_congr rfl fun k _ => ?_
  rw [dif_pos k.isLt]

end Cert.LibSumBlocks
-- ==== Proof.Regroup.lean ====
/-
  A row's embedding as the sum of its 25 vocabulary blocks' shares.

  The table's 32000 vocabulary entries are walked in 25 consecutive blocks of 1280. The share of block `k` in the
  embedding of a row is the sum, over the block's 1280 entries, of the row's n-hot weight on the entry's word times
  the table's entry; the row's embedding is the sum of the 25 shares, because a sum over all entries is the sum over
  the blocks of the sums inside the blocks (addition of extended reals is commutative and associative, infinities
  included, so no finiteness is needed). The token columns and the table are read at natural-number rows (zero past the
  end, which no use reaches), so that a row `a * 512 + r` of row tile `a` and an entry `k * 1280 + j` of block `k`
  need no bound proofs in the statements.
-/
import proofs.«108991_j11072425689872_1_alg».proof.Proof.NHot
import proofs.«108991_j11072425689872_1_alg».proof.Proof.LibSumBlocks

noncomputable section

namespace NGram

open Idealize.ShloMosaic Idealize.ShloMosaic.ValueIdx

/-- A token column `[4096, 1]` read at a natural-number row. -/
def rowAt (A : (⟨2, ![4096, 1]⟩ : Shape).Idx → BitVec 32) (n : ℕ) : BitVec 32 :=
  if h : n < 4096 then A (ix2 ⟨n, h⟩ (0 : Fin 1)) else 0

/-- The table `[32000, 256]` read at a natural-number entry and a feature. -/
def tabAt (W : (⟨2, ![32000, 256]⟩ : Shape).Idx → EReal) (n : ℕ) (d : Fin 256) : EReal :=
  if h : n < 32000 then W (ix2 ⟨n, h⟩ d) else 0

theorem rowAt_of_lt (A : (⟨2, ![4096, 1]⟩ : Shape).Idx → BitVec 32) (n : ℕ) (h : n < 4096) :
    rowAt A n = A (ix2 ⟨n, h⟩ (0 : Fin 1)) := dif_pos h

theorem tabAt_of_lt (W : (⟨2, ![32000, 256]⟩ : Shape).Idx → EReal) (n : ℕ) (d : Fin 256) (h : n < 32000) :
    tabAt W n d = W (ix2 ⟨n, h⟩ d) := dif_pos h

variable (I0 I1 I2 : (⟨2, ![4096, 1]⟩ : Shape).Idx → BitVec 32) (W : (⟨2, ![32000, 256]⟩ : Shape).Idx → EReal)

/-- The share of vocabulary block `k` in the embedding of row `row`, at feature `d`. -/
def blockShare (row : ℕ) (d : Fin 256) (k : ℕ) : EReal :=
  ∑ j : Fin 1280, nhot (rowAt I0 row) (rowAt I1 row) (rowAt I2 row) (BitVec.ofNat 32 (k * 1280 + j.val))
    * tabAt W (k * 1280 + j.val) d

/-- The embedding of row `row` at feature `d`: the sum over the whole vocabulary. -/
def rowEmbed (row : ℕ) (d : Fin 256) : EReal :=
  ∑ v : Fin 32000, nhot (rowAt I0 row) (rowAt I1 row) (rowAt I2 row) (BitVec.ofNat 32 v.val) * tabAt W v.val d

/-- The 25 blocks' shares add up to the row's embedding. -/
theorem sum_blockShare (row : ℕ) (d : Fin 256) :
    ∑ k ∈ Finset.range 25, blockShare I0 I1 I2 W row d k = rowEmbed I0 I1 I2 W row d := by
  have hb := Cert.LibSumBlocks.sum_blocks_range (M := EReal) 25 1280
    (fun v : Fin (25 * 1280) =>
      nhot (rowAt I0 row) (rowAt I1 row) (rowAt I2 row) (BitVec.ofNat 32 v.val) * tabAt W v.val d)
  refine Eq.trans ?_ hb.symm
  refine Finset.sum_congr rfl fun k hk => ?_
  rw [dif_pos (Finset.mem_range.mp hk)]
  rfl

end NGram

end
-- ==== Proof.Blocks.lean ====
/-
  The blocks the body is handed, read off their arrays.

  The 200 grid points are walked with the vocabulary block moving fastest: point `t` is row tile `t / 25` and
  vocabulary block `t % 25`. At point `t` each token column's block is rows `(t / 25) * 512 … + 511` of its column, the
  table's block is entries `(t % 25) * 1280 … + 1279`, and the output's block is rows `(t / 25) * 512 … + 511` of the
  result. A block's coordinate along an axis is always the window's block index times the block's extent plus the
  coordinate inside the block; the block indices are decided once over the grid.
-/
import proofs.«108991_j11072425689872_1_alg».proof.Proof.Gen.KernelIdeal.Frame
import proofs.«108991_j11072425689872_1_alg».proof.Proof.Regroup
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen NGram

variable (m : (ℓ : Loc nD τ sig) → Buf (Elt Ideal) ℓ)

/-- Point `t` is row tile `t / 25`, vocabulary block `t % 25`. -/
theorem coords_val : ∀ t : Fin cfg0.N, (grid0.coords t 0).val = t.val / 25 ∧ (grid0.coords t 1).val = t.val % 25 :=
  (by decide +kernel : ∀ t : Fin grid0.N, (grid0.coords t 0).val = t.val / 25 ∧ (grid0.coords t 1).val = t.val % 25)

/-- The windows' block indices at point `t`: the token columns and the output follow the row tile, the table the
    vocabulary block; the second axis is never cut. -/
theorem index_facts : ∀ t : Fin cfg0.N,
    win0_0.index t (0 : Fin 2) = t.val / 25 ∧ win0_0.index t (1 : Fin 2) = 0
    ∧ win0_1.index t (0 : Fin 2) = t.val / 25 ∧ win0_1.index t (1 : Fin 2) = 0
    ∧ win0_2.index t (0 : Fin 2) = t.val / 25 ∧ win0_2.index t (1 : Fin 2) = 0
    ∧ win0_3.index t (0 : Fin 2) = t.val % 25 ∧ win0_3.index t (1 : Fin 2) = 0
    ∧ win0_4.index t (0 : Fin 2) = t.val / 25 ∧ win0_4.index t (1 : Fin 2) = 0 :=
  (by decide +kernel : ∀ t : Fin grid0.N,
    win0_0.index t (0 : Fin 2) = t.val / 25 ∧ win0_0.index t (1 : Fin 2) = 0
    ∧ win0_1.index t (0 : Fin 2) = t.val / 25 ∧ win0_1.index t (1 : Fin 2) = 0
    ∧ win0_2.index t (0 : Fin 2) = t.val / 25 ∧ win0_2.index t (1 : Fin 2) = 0
    ∧ win0_3.index t (0 : Fin 2) = t.val % 25 ∧ win0_3.index t (1 : Fin 2) = 0
    ∧ win0_4.index t (0 : Fin 2) = t.val / 25 ∧ win0_4.index t (1 : Fin 2) = 0)

/-- Token column 0's block at a point: row `r` of the block is row `(t / 25) * 512 + r` of the column. -/
theorem tok0_apply (c : Dev nD) (t : Fin cfg0.N) (r : Fin 512) (u : Fin 1) :
    (iblk m c 0 t : Vec Ideal S512x1 .i32) (ix2 r u)
      = rowAt (V m c main_v2 : S4096x1.Idx → BitVec 32) (t.val / 25 * 512 + r.val) := by
  have hN : t.val < 200 := lt_of_lt_of_eq t.isLt (show cfg0.N = 200 from N_0)
  rw [rowAt_of_lt _ _ (by omega)]
  unfold iblk
  rw [View.read_apply]
  show V m c main_v2 _ = V m c main_v2 _
  refine congrArg (V m c main_v2) (funext fun a => Fin.ext ?_)
  have e := index_facts t
  match a with
  | ⟨0, _⟩ =>
    show win0_0.index t (0 : Fin 2) * 512 + 1 * r.val = t.val / 25 * 512 + r.val
    rw [e.1]; omega
  | ⟨1, _⟩ =>
    show win0_0.index t (1 : Fin 2) * 1 + 1 * u.val = 0
    rw [e.2.1]; omega

/-- Token column 1's block at a point: row `r` of the block is row `(t / 25) * 512 + r` of the column. -/
theorem tok1_apply (c : Dev nD) (t : Fin cfg0.N) (r : Fin 512) (u : Fin 1) :
    (iblk m c 1 t : Vec Ideal S512x1 .i32) (ix2 r u)
      = rowAt (V m c main_v4 : S4096x1.Idx → BitVec 32) (t.val / 25 * 512 + r.val) := by
  have hN : t.val < 200 := lt_of_lt_of_eq t.isLt (show cfg0.N = 200 from N_0)
  rw [rowAt_of_lt _ _ (by omega)]
  unfold iblk
  rw [View.read_apply]
  show V m c main_v4 _ = V m c main_v4 _
  refine congrArg (V m c main_v4) (funext fun a => Fin.ext ?_)
  have e := index_facts t
  match a with
  | ⟨0, _⟩ =>
    show win0_1.index t (0 : Fin 2) * 512 + 1 * r.val = t.val / 25 * 512 + r.val
    rw [e.2.2.1]; omega
  | ⟨1, _⟩ =>
    show win0_1.index t (1 : Fin 2) * 1 + 1 * u.val = 0
    rw [e.2.2.2.1]; omega

/-- Token column 2's block at a point: row `r` of the block is row `(t / 25) * 512 + r` of the column. -/
theorem tok2_apply (c : Dev nD) (t : Fin cfg0.N) (r : Fin 512) (u : Fin 1) :
    (iblk m c 2 t : Vec Ideal S512x1 .i32) (ix2 r u)
      = rowAt (V m c main_v6 : S4096x1.Idx → BitVec 32) (t.val / 25 * 512 + r.val) := by
  have hN : t.val < 200 := lt_of_lt_of_eq t.isLt (show cfg0.N = 200 from N_0)
  rw [rowAt_of_lt _ _ (by omega)]
  unfold iblk
  rw [View.read_apply]
  show V m c main_v6 _ = V m c main_v6 _
  refine congrArg (V m c main_v6) (funext fun a => Fin.ext ?_)
  have e := index_facts t
  match a with
  | ⟨0, _⟩ =>
    show win0_2.index t (0 : Fin 2) * 512 + 1 * r.val = t.val / 25 * 512 + r.val
    rw [e.2.2.2.2.1]; omega
  | ⟨1, _⟩ =>
    show win0_2.index t (1 : Fin 2) * 1 + 1 * u.val = 0
    rw [e.2.2.2.2.2.1]; omega

/-- The table's block at a point: entry `j` of the block is entry `(t % 25) * 1280 + j` of the table. -/
theorem tab_apply (c : Dev nD) (t : Fin cfg0.N) (j : Fin 1280) (d : Fin 256) :
    (iblk m c 3 t : Vec Ideal S1280x256 .bf16) (ix2 j d)
      = tabAt (V m c main_v7 : S32000x256.Idx → EReal) (t.val % 25 * 1280 + j.val) d := by
  rw [tabAt_of_lt _ _ _ (by omega)]
  unfold iblk
  rw [View.read_apply]
  show V m c main_v7 _ = V m c main_v7 _
  refine congrArg (V m c main_v7) (funext fun a => Fin.ext ?_)
  have e := index_facts t
  match a with
  | ⟨0, _⟩ =>
    show win0_3.index t (0 : Fin 2) * 1280 + 1 * j.val = t.val % 25 * 1280 + j.val
    rw [e.2.2.2.2.2.2.1]; omega
  | ⟨1, _⟩ =>
    show win0_3.index t (1 : Fin 2) * 256 + 1 * d.val = d.val
    rw [e.2.2.2.2.2.2.2.1]; omega

end Cert.KernelIdeal.Blocks

end
-- ==== Proof.Accum.lean ====
/-
  The accumulator after every grid point.

  Within a row tile the 25 vocabulary blocks are visited in order. The accumulator is reset to zero at the first block
  and every block adds its share, so after block `k` of row tile `a` it holds, at position `r` and feature `d`, the
  sum of the shares of blocks `0 … k` in the embedding of row `a * 512 + r`. This is proved by induction on the point:
  at a first block the step runs on the zero tile (and `0 + x = x`), elsewhere on what the point before left, which is
  the same row tile's previous block. At the last block the output tile receives the same value: all 25 shares.
-/
import proofs.«108991_j11072425689872_1_alg».proof.Proof.Pieces
import proofs.«108991_j11072425689872_1_alg».proof.Proof.Payload
import proofs.«108991_j11072425689872_1_alg».proof.Proof.Blocks

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen NGram

variable (m : (ℓ : Loc nD τ sig) → Buf (Elt Ideal) ℓ)

/-- The three token columns and the table as the region finds them. -/
abbrev I0 (c : Dev nD) : S4096x1.Idx → BitVec 32 := V m c main_v2
abbrev I1 (c : Dev nD) : S4096x1.Idx → BitVec 32 := V m c main_v4
abbrev I2 (c : Dev nD) : S4096x1.Idx → BitVec 32 := V m c main_v6
abbrev W (c : Dev nD) : S32000x256.Idx → EReal := V m c main_v7

/-- The step on any blocks that are known, entry by entry, to be rows of the columns and entries of the table: old value
    plus the block's share. -/
theorem step_of (i : grid0.Coords) (x0 x1 x2 : Vec Ideal S512x1 .i32) (xs : Vec Ideal S512x256 .f32)
    (x3 : Vec Ideal S1280x256 .bf16) (r : Fin 512) (d : Fin 256) (row k : ℕ)
    (J0 J1 J2 : S4096x1.Idx → BitVec 32) (T : S32000x256.Idx → EReal)
    (e0 : x0 (ix2 r (0 : Fin 1)) = rowAt J0 row) (e1 : x1 (ix2 r (0 : Fin 1)) = rowAt J1 row)
    (e2 : x2 (ix2 r (0 : Fin 1)) = rowAt J2 row) (e3 : ∀ j : Fin 1280, x3 (ix2 j d) = tabAt T (k * 1280 + j.val) d)
    (ek : (i 1).val = k) :
    k0_pay2 (F := Ideal) i x0 x1 x2 xs x3 (ix2 r d) = xs (ix2 r d) + blockShare J0 J1 J2 T row d k := by
  rw [Pay.pay2_apply, e0, e1, e2, ek]
  exact congrArg (xs (ix2 r d) + ·) (Finset.sum_congr rfl fun j _ => by rw [e3 j])

/-- THE STEP at point `t`, on the point's blocks: old value plus the share of block `t % 25` in row
    `(t / 25) * 512 + r`. -/
theorem step (c : Dev nD) (t : Fin cfg0.N) (xs : Vec Ideal S512x256 .f32) (r : Fin 512) (d : Fin 256) :
    k0_pay2 (F := Ideal) (grid0.coords t) (iblk m c 0 t) (iblk m c 1 t) (iblk m c 2 t) xs (iblk m c 3 t) (ix2 r d)
      = xs (ix2 r d) + blockShare (I0 m c) (I1 m c) (I2 m c) (W m c) (t.val / 25 * 512 + r.val) d (t.val % 25) := by
  have e0 := Blocks.tok0_apply m c t r (0 : Fin 1)
  have e1 := Blocks.tok1_apply m c t r (0 : Fin 1)
  have e2 := Blocks.tok2_apply m c t r (0 : Fin 1)
  have e3 := fun j => Blocks.tab_apply m c t j d
  have ek := (Blocks.coords_val t).2
  refine step_of (grid0.coords t) (iblk m c 0 t) (iblk m c 1 t) (iblk m c 2 t) xs (iblk m c 3 t) r d
    (t.val / 25 * 512 + r.val) (t.val % 25) (I0 m c) (I1 m c) (I2 m c) (W m c) ?_ ?_ ?_ ?_ ?_
  · exact e0
  · exact e1
  · exact e2
  · exact e3
  · exact ek

/-- At a first block the accumulator ends at the step on the zero tile; -/
theorem scratch_A (c : Dev nD) (t : Fin cfg0.N) (h0 : t.val % 25 = 0) (h1 : ¬t.val % 25 = 24) :
    (outsAt0 m c t.val t.isLt).2
      = k0_pay2 (F := Ideal) (grid0.coords t) (iblk m c 0 t) (iblk m c 1 t) (iblk m c 2 t) (k0_pay1 (F := Ideal)) (iblk m c 3 t) := by
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (iblk m c 0 t) (iblk m c 1 t) (iblk m c 2 t) (iblk m c 3 t)

/-- at a middle block at the step on what the point before left; -/
theorem scratch_B (c : Dev nD) (t : Fin cfg0.N) (h0 : ¬t.val % 25 = 0) (h1 : ¬t.val % 25 = 24) :
    (outsAt0 m c t.val t.isLt).2
      = k0_pay2 (F := Ideal) (grid0.coords t) (iblk m c 0 t) (iblk m c 1 t) (iblk m c 2 t) (outsAt0 m c (t.val - 1) (Nat.lt_of_le_of_lt (Nat.sub_le _ _) t.isLt)).2 (iblk m c 3 t) := by
  rw [outsAt0_B m c t h0 h1]
  dsimp only
  exact Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- at a last block the same, -/
theorem scratch_C (c : Dev nD) (t : Fin cfg0.N) (h0 : ¬t.val % 25 = 0) (h1 : t.val % 25 = 24) :
    (outsAt0 m c t.val t.isLt).2
      = k0_pay2 (F := Ideal) (grid0.coords t) (iblk m c 0 t) (iblk m c 1 t) (iblk m c 2 t) (outsAt0 m c (t.val - 1) (Nat.lt_of_le_of_lt (Nat.sub_le _ _) t.isLt)).2 (iblk m c 3 t) := by
  rw [outsAt0_C m c t h0 h1]
  dsimp only
  exact Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and the output tile holds that value too. -/
theorem out_C (c : Dev nD) (t : Fin cfg0.N) (h0 : ¬t.val % 25 = 0) (h1 : t.val % 25 = 24) :
    (outsAt0 m c t.val t.isLt).1
      = k0_pay2 (F := Ideal) (grid0.coords t) (iblk m c 0 t) (iblk m c 1 t) (iblk m c 2 t) (outsAt0 m c (t.val - 1) (Nat.lt_of_le_of_lt (Nat.sub_le _ _) t.isLt)).2 (iblk m c 3 t) := by
  rw [outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- THE ACCUMULATOR after point `n`: the shares of blocks `0 … n % 25` of row `(n / 25) * 512 + r`. -/
theorem scratch_eq (c : Dev nD) : ∀ (n : ℕ) (h : n < cfg0.N) (r : Fin 512) (d : Fin 256),
    (outsAt0 m c n h).2 (ix2 r d)
      = ∑ k ∈ Finset.range (n % 25 + 1), blockShare (I0 m c) (I1 m c) (I2 m c) (W m c) (n / 25 * 512 + r.val) d k := by
  intro n
  induction n with
  | zero =>
    intro h r d
    have e := congrFun (scratch_A m c ⟨0, h⟩ rfl (show ¬(0 % 25 = 24) by decide)) (ix2 r d)
    refine e.trans ?_
    rw [step m c ⟨0, h⟩, Pay.pay1_apply, zero_add]
    show _ = ∑ k ∈ Finset.range 1, _
    rw [Finset.sum_range_one]
    rfl
  | succ n ih =>
    intro h r d
    have hN : n + 1 < 200 := lt_of_lt_of_eq h (show cfg0.N = 200 from N_0)
    by_cases h0 : (n + 1) % 25 = 0
    · have h1 : ¬(n + 1) % 25 = 24 := by omega
      refine (congrFun (scratch_A m c ⟨n + 1, h⟩ h0 h1) (ix2 r d)).trans ?_
      rw [step m c ⟨n + 1, h⟩, Pay.pay1_apply, zero_add]
      show blockShare (I0 m c) (I1 m c) (I2 m c) (W m c) ((n + 1) / 25 * 512 + r.val) d ((n + 1) % 25) = _
      rw [h0, Finset.sum_range_one]
    · have e1 : (n + 1) / 25 = n / 25 := by omega
      have e2 : (n + 1) % 25 = n % 25 + 1 := by omega
      have hstep : (outsAt0 m c (n + 1) h).2 (ix2 r d)
          = (outsAt0 m c n (Nat.lt_of_succ_lt h)).2 (ix2 r d)
            + blockShare (I0 m c) (I1 m c) (I2 m c) (W m c) ((n + 1) / 25 * 512 + r.val) d ((n + 1) % 25) := by
        by_cases h1 : (n + 1) % 25 = 24
        · refine (congrFun (scratch_C m c ⟨n + 1, h⟩ h0 h1) (ix2 r d)).trans ?_
          exact step m c ⟨n + 1, h⟩ _ r d
        · refine (congrFun (scratch_B m c ⟨n + 1, h⟩ h0 h1) (ix2 r d)).trans ?_
          exact step m c ⟨n + 1, h⟩ _ r d
      rw [hstep, ih (Nat.lt_of_succ_lt h) r d, e1, e2, Finset.sum_range_succ _ (n % 25 + 1)]

/-- WHAT A LAST BLOCK HANDS THE OUTPUT: the whole embedding of row `(t / 25) * 512 + r`. -/
theorem out_eq (c : Dev nD) (t : Fin cfg0.N) (h1 : t.val % 25 = 24) (r : Fin 512) (d : Fin 256) :
    (outsAt0 m c t.val t.isLt).1 (ix2 r d)
      = rowEmbed (I0 m c) (I1 m c) (I2 m c) (W m c) (t.val / 25 * 512 + r.val) d := by
  have h0 : ¬t.val % 25 = 0 := by omega
  have hs := congrFun ((out_C m c t h0 h1).trans (scratch_C m c t h0 h1).symm) (ix2 r d)
  rw [hs, scratch_eq m c t.val t.isLt r d, h1]
  exact sum_blockShare _ _ _ _ _ _

end Cert.KernelIdeal.Acc

end
-- ==== Proof.Final.lean ====
/-
  The kernel's result array: every row's embedding.

  The output's 8 row tiles are written back once each, at the last vocabulary block of the tile, and what is written is the
  whole embedding of the tile's 512 rows. The 8 tiles cover the 4096 rows (row `q` lies in tile `q / 512`, written back
  at point `(q / 512) * 25 + 24`), so the array ends holding, at row `q` and feature `d`, the embedding of row `q`.
-/
import proofs.«108991_j11072425689872_1_alg».proof.Proof.Accum

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen NGram

variable (m : (ℓ : Loc nD τ sig) → Buf (Elt Ideal) ℓ)

/-- The `[4096, 256]` array of all rows' embeddings, over the token columns and the table as the region finds them. -/
def rows (c : Dev nD) : S4096x256.Idx → EReal := fun y => rowEmbed (Acc.I0 m c) (Acc.I1 m c) (Acc.I2 m c) (Acc.W m c) (y 0).val (y 1)

/-- Reading any `[4096, 256]` array through the output's block at a point is reading it at the block's rows. -/
theorem read_tile (G : S4096x256.Idx → EReal) (t : Fin cfg0.N) (j : ((cfg0.win 4).xblock (cfg0.grid.coords t)).Idx) :
    ((cfg0.win 4).blk t).view.read (Elt Ideal) G j = G (((cfg0.win 4).blk t).view.emb j) := by
  rw [View.read_apply]
  rfl

/-- WHAT A WRITE-BACK WRITES: at a last block, the tile's rows of `rows`. -/
theorem flushed_eq (c : Dev nD) (t : Fin cfg0.N) (hf : (cfg0.win 4).flush t = true) :
    (dats m 0 c).flushed 4 t = ((cfg0.win 4).blk t).view.read (Elt Ideal) (rows m c) := by
  have h1 : t.val % 25 = 24 := (flush0_4 t).mp hf
  show (cfg0.win 4).cut (grid0.coords t) ((dats m 0 c).after 4 t) = _
  rw [after0_4]
  funext j
  have e1 := Acc.out_eq m c t h1 (j 0) (j 1)
  have hj : (ix2 (j 0) (j 1) : S512x256.Idx) = j := (eq_ix2 j).symm
  rw [hj] at e1
  refine e1.trans ?_
  refine Eq.trans ?_ (read_tile (rows m c) t j).symm
  unfold rows
  have e := Blocks.index_facts t
  have a0 : ((((cfg0.win 4).blk t).view.emb j) 0).val = t.val / 25 * 512 + (j 0).val := by
    show win0_4.index t (0 : Fin 2) * 512 + 1 * (j 0).val = _
    rw [e.2.2.2.2.2.2.2.2.1]; omega
  have a1 : (((cfg0.win 4).blk t).view.emb j) 1 = j 1 := Fin.ext (by
    show win0_4.index t (1 : Fin 2) * 256 + 1 * (j 1).val = (j 1).val
    rw [e.2.2.2.2.2.2.2.2.2]; omega)
  rw [a0, a1]

/-- A row of the result is in point `t`'s tile iff each coordinate is in the tile's range. -/
theorem mem_blk (t : Fin cfg0.N) (y : S4096x256.Idx) :
    y ∈ ((cfg0.win 4).blk t).view.set ↔ ∀ a : Fin 2, win0_4.index t a * S512x256.size a ≤ (y a).val
      ∧ (y a).val < win0_4.index t a * S512x256.size a + S512x256.size a := by
  show y ∈ ((View.whole main_v8).slice (win0_4.rect t)).set ↔ _
  rw [View.set_slice_whole, Rect.mem_set_unit]
  exact Iff.rfl

/-- Every row is in a tile that is written back. -/
theorem cover (y : S4096x256.Idx) :
    ∃ t : Fin cfg0.N, (cfg0.win 4).flush t = true ∧ y ∈ ((cfg0.win 4).blk t).view.set := by
  have hy0 : (y 0).val < 4096 := (y 0).isLt
  have hy1 : (y 1).val < 256 := (y 1).isLt
  have hN : cfg0.N = 200 := N_0
  refine ⟨⟨(y 0).val / 512 * 25 + 24, by omega⟩, (flush0_4 _).mpr (by show ((y 0).val / 512 * 25 + 24) % 25 = 24; omega), ?_⟩
  rw [mem_blk]
  have e := Blocks.index_facts ⟨(y 0).val / 512 * 25 + 24, by omega⟩
  have q0 : ((y 0).val / 512 * 25 + 24) / 25 = (y 0).val / 512 := by omega
  intro a
  match a with
  | ⟨0, _⟩ =>
    show win0_4.index _ (0 : Fin 2) * 512 ≤ (y 0).val ∧ (y 0).val < win0_4.index _ (0 : Fin 2) * 512 + 512
    rw [e.2.2.2.2.2.2.2.2.1]
    show ((y 0).val / 512 * 25 + 24) / 25 * 512 ≤ (y 0).val ∧ (y 0).val < ((y 0).val / 512 * 25 + 24) / 25 * 512 + 512
    rw [q0]; omega
  | ⟨1, _⟩ =>
    show win0_4.index _ (1 : Fin 2) * 256 ≤ (y 1).val ∧ (y 1).val < win0_4.index _ (1 : Fin 2) * 256 + 256
    rw [e.2.2.2.2.2.2.2.2.2]; omega

/-- THE RESULT ARRAY of the region: all rows' embeddings. -/
theorem final (c : Dev nD) : (dats m 0 c).arrAt 4 cfg0.N = rows m c :=
  (dats m 0 c).arrAt_eq_of_cover 4 (rows m c) (flushed_eq m c) (cover)

end Cert.KernelIdeal.Final

end
-- ==== Proof.KernelValue.lean ====
/-
  The kernel's result as a function of its two arguments.

  Around the region the program only re-lays data. Before it, the tokens `[3, 128, 32]` are regrouped to `[3, 4096, 1]`
  (position `(s, b)` becomes row `s * 32 + b`), cut into the three n-gram slots, and each slot viewed as a column
  `[4096, 1]`; the table is converted to a narrower float format, which changes no extended real. After it, the
  `[4096, 256]` array of row embeddings is regrouped to `[128, 32, 256]`. So the result at `(s, b, d)` is the embedding of
  row `s * 32 + b`, whose three token words are the tokens at `(0, s, b)`, `(1, s, b)`, `(2, s, b)`: the embedding of
  NHot.lean.
-/
import proofs.«108991_j11072425689872_1_alg».proof.Proof.Final
import proofs.«108991_j11072425689872_1_alg».proof.Proof.LibLayout
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen NGram

variable (m : (ℓ : Loc nD τ sig) → Buf (Elt Ideal) ℓ) (ρ : Dev nD → PrngReg)

/-- A `[1, 4096, 1]` array viewed as a column `[4096, 1]` reads, at row `q`, its entry `(0, q, 0)`. -/
theorem colView_apply (y : S1x4096x1.Idx → BitVec 32) (q : Fin 4096) :
    shapeCast S4096x1 y shapeCasts_S1x4096x1_S4096x1 (ix2 q (0 : Fin 1)) = y (ix3 (0 : Fin 1) q (0 : Fin 1)) :=
  LibLayout.shapeCast_abc_dc_apply y shapeCasts_S1x4096x1_S4096x1 q (0 : Fin 1) (0 : Fin 1) q
    (by show q.val = 0 * 4096 + q.val; omega)

/-- Slot `n` cut out of a `[3, 4096, 1]` array reads, at `(0, q, 0)`, the array's entry `(n, q, 0)`. -/
theorem slot_apply (z : S3x4096x1.Idx → BitVec 32) (n : Fin 3) (off : Fin 3 → Nat) (hoff : off = ![n.val, 0, 0])
    (hs : S3x4096x1.Slices off S1x4096x1) (q : Fin 4096) :
    extractStridedSlice S1x4096x1 off z hs (ix3 (0 : Fin 1) q (0 : Fin 1)) = z (ix3 n q (0 : Fin 1)) := by
  subst hoff
  refine extractStridedSlice_apply ![n.val, 0, 0] z hs (ix3 (0 : Fin 1) q (0 : Fin 1)) (ix3 n q (0 : Fin 1)) (fun a => ?_)
  match a with
  | ⟨0, _⟩ => show n.val = n.val + 0; omega
  | ⟨1, _⟩ => show q.val = 0 + q.val; omega
  | ⟨2, _⟩ => show 0 = 0 + 0; rfl

/-- The tokens `[3, 128, 32]` regrouped to `[3, 4096, 1]` read, at `(n, q, 0)` with `q = s * 32 + b`, the token at
    `(n, s, b)`: both sit at row-major position `(n * 128 + s) * 32 + b`. -/
theorem regroup_apply (x : S3x128x32.Idx → BitVec 32) (n : Fin 3) (s : Fin 128) (b : Fin 32) (q : Fin 4096)
    (hq : q.val = s.val * 32 + b.val) :
    shapeCast S3x4096x1 x shapeCasts_S3x128x32_S3x4096x1 (ix3 n q (0 : Fin 1)) = x (ix3 n s b) :=
  shapeCast_apply x shapeCasts_S3x128x32_S3x4096x1 (ix3 n q (0 : Fin 1)) (ix3 n s b) (by
    rw [Shape.rowMajor_val_three, Shape.rowMajor_val_three]
    show (n.val * 128 + s.val) * 32 + b.val = (n.val * 4096 + q.val) * 1 + 0
    omega)

/-- Slot `n` of the regrouped tokens, viewed as a column, reads at row `q = s * 32 + b` the token at `(n, s, b)`. -/
theorem column_apply (x : S3x128x32.Idx → BitVec 32) (n : Fin 3) (off : Fin 3 → Nat) (hoff : off = ![n.val, 0, 0])
    (hs : S3x4096x1.Slices off S1x4096x1) (s : Fin 128) (b : Fin 32) (q : Fin 4096) (hq : q.val = s.val * 32 + b.val) :
    shapeCast S4096x1 (extractStridedSlice S1x4096x1 off (shapeCast S3x4096x1 x shapeCasts_S3x128x32_S3x4096x1) hs)
      shapeCasts_S1x4096x1_S4096x1 (ix2 q (0 : Fin 1)) = x (ix3 n s b) :=
  (colView_apply _ q).trans ((slot_apply _ n off hoff hs q).trans (regroup_apply x n s b q hq))

/-- The three token columns and the table as the region finds them: the host operations before it, composed. -/
theorem col0_eq (c : Dev nD) : (V m c main_v2 : S4096x1.Idx → BitVec 32) = shapeCast S4096x1 (extractStridedSlice S1x4096x1 ![0, 0, 0]
        (shapeCast S3x4096x1 (m ((c : Thread nD τ).loc main_arg0)) shapeCasts_S3x128x32_S3x4096x1)
        slices_S3x4096x1_S1x4096x1_0_0_0) shapeCasts_S1x4096x1_S4096x1 := by
  show StableHlo.after hostOps0 (fun b => m (c, b)) (Proc.devRef .tc main_v2) = _
  after_results
  rfl
theorem col1_eq (c : Dev nD) : (V m c main_v4 : S4096x1.Idx → BitVec 32) = shapeCast S4096x1 (extractStridedSlice S1x4096x1 ![1, 0, 0]
        (shapeCast S3x4096x1 (m ((c : Thread nD τ).loc main_arg0)) shapeCasts_S3x128x32_S3x4096x1)
        slices_S3x4096x1_S1x4096x1_1_0_0) shapeCasts_S1x4096x1_S4096x1 := by
  show StableHlo.after hostOps0 (fun b => m (c, b)) (Proc.devRef .tc main_v4) = _
  after_results
  rfl
theorem col2_eq (c : Dev nD) : (V m c main_v6 : S4096x1.Idx → BitVec 32) = shapeCast S4096x1 (extractStridedSlice S1x4096x1 ![2, 0, 0]
        (shapeCast S3x4096x1 (m ((c : Thread nD τ).loc main_arg0)) shapeCasts_S3x128x32_S3x4096x1)
        slices_S3x4096x1_S1x4096x1_2_0_0) shapeCasts_S1x4096x1_S4096x1 := by
  show StableHlo.after hostOps0 (fun b => m (c, b)) (Proc.devRef .tc main_v6) = _
  after_results
  rfl
theorem table_eq (c : Dev nD) : (V m c main_v7 : S32000x256.Idx → EReal)
    = (truncf .bf16 ((m ((c : Thread nD τ).loc main_arg1)) : FVec Ideal S32000x256 .f32) bitsLt_bf16_f32 : FVec Ideal S32000x256 .bf16) := by
  show StableHlo.after hostOps0 (fun b => m (c, b)) (Proc.devRef .tc main_v7) = _
  after_results

/-- The program's result: the row embeddings regrouped by `(s, b)`. -/
theorem tail_eq (c : Dev nD) :
    Pipeline.afterTail₀ cfgs (dats m) 0 (V0 m) [hostOps1] c main_v9
      = shapeCast S128x32x256 (Final.rows m c) shapeCasts_S4096x256_S128x32x256 := by
  unfold Pipeline.afterTail₀
  show StableHlo.after hostOps1 _ (Proc.devRef .tc main_v9) = _
  after_results
  exact congrArg (fun z => shapeCast S128x32x256 z shapeCasts_S4096x256_S128x32x256)
    ((Pipeline.withArrays_arr spec0 launch0.win.arr_inj c _ _ 4).trans (Final.final m c))

/-- THE KERNEL'S VALUE: the program's result is the embedding of its two arguments. -/
theorem result_eq (c : Dev nD) :
    Pipeline.afterTail₀ cfgs (dats m) 0 (V0 m) [hostOps1] c main_v9 = embed (m ((c : Thread nD τ).loc main_arg0)) (m ((c : Thread nD τ).loc main_arg1)) := by
  rw [tail_eq]
  funext i
  obtain ⟨s, b, d, rfl⟩ : ∃ (s : Fin 128) (b : Fin 32) (d : Fin 256), i = ix3 s b d := ⟨i 0, i 1, i 2, eq_ix3 i⟩
  have hq : s.val * 32 + b.val < 4096 := by have := s.isLt; have := b.isLt; omega
  rw [LibLayout.shapeCast_dc_abc_apply _ _ s b d ⟨s.val * 32 + b.val, hq⟩ rfl]
  show rowEmbed (Acc.I0 m c) (Acc.I1 m c) (Acc.I2 m c) (Acc.W m c) (s.val * 32 + b.val) d = _
  unfold rowEmbed embed
  refine Finset.sum_congr rfl fun v _ => ?_
  rw [rowAt_of_lt _ _ hq, rowAt_of_lt _ _ hq, rowAt_of_lt _ _ hq, tabAt_of_lt _ _ _ v.isLt]
  have c0 : Acc.I0 m c (ix2 ⟨s.val * 32 + b.val, hq⟩ (0 : Fin 1)) = (m ((c : Thread nD τ).loc main_arg0)) (ix3 (0 : Fin 3) s b) := by
    show (V m c main_v2 : S4096x1.Idx → BitVec 32) _ = _
    rw [col0_eq]; exact column_apply _ 0 _ rfl _ s b _ rfl
  have c1 : Acc.I1 m c (ix2 ⟨s.val * 32 + b.val, hq⟩ (0 : Fin 1)) = (m ((c : Thread nD τ).loc main_arg0)) (ix3 (1 : Fin 3) s b) := by
    show (V m c main_v4 : S4096x1.Idx → BitVec 32) _ = _
    rw [col1_eq]; exact column_apply _ 1 _ rfl _ s b _ rfl
  have c2 : Acc.I2 m c (ix2 ⟨s.val * 32 + b.val, hq⟩ (0 : Fin 1)) = (m ((c : Thread nD τ).loc main_arg0)) (ix3 (2 : Fin 3) s b) := by
    show (V m c main_v6 : S4096x1.Idx → BitVec 32) _ = _
    rw [col2_eq]; exact column_apply _ 2 _ rfl _ s b _ rfl
  have cw : Acc.W m c (ix2 (⟨v.val, v.isLt⟩ : Fin 32000) d) = (m ((c : Thread nD τ).loc main_arg1)) (ix2 v d) := by
    show (V m c main_v7 : S32000x256.Idx → EReal) _ = _
    rw [table_eq]; rfl
  rw [c0, c1, c2, cw]

/-- The kernel's run, read: the result at the embedding of the arguments, the arguments unchanged. -/
theorem run : θ_run defs (onTc (τ := τ) (main (F := Ideal))) ⟨m, fun _ => 0, ρ⟩ fun r => ∀ c : Dev nD,
      r.2.mem ((c : Thread nD τ).loc main_v9) = embed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v9 (Pipeline.mem_restRefs_of main_v9 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference computes the embedding.

  The reference builds, for each n-gram slot, the one-hot tensor `[128, 32, 32000]` of the slot's tokens against the
  vocabulary `0 … 31999`, takes the largest of zero and the three tensors entry by entry, and contracts the vocabulary axis
  with the table. Entry `(s, b, v)` of a one-hot tensor is the one-hot bit of the token at `(slot, s, b)` against the word
  of `v`; a bit is never negative, so the leading zero drops out; and the contraction read at `(s, b, d)` is the sum over
  `v` of the weight times the table's entry `(v, d)`: the embedding of NHot.lean.
-/
import proofs.«108991_j11072425689872_1_alg».proof.Proof.Gen.ReferenceIdeal.Read
import proofs.«108991_j11072425689872_1_alg».proof.Proof.NHot

noncomputable section

namespace Cert.ReferenceIdeal.RefValue

open Idealize.ShloMosaic Idealize.ShloMosaic.ValueIdx
open Cert.ReferenceIdeal Cert.ReferenceIdeal.Read NGram

/-- The reference's one-hot tensor of slot 0 at `(s, b, v)`: the one-hot bit of the token at `(0, s, b)` against the
    word of `v`. -/
theorem onehot0_apply (x0 : (⟨S3x128x32, .i32⟩ : BufTy).Contents (Elt Ideal)) (i : S128x32x32000.Idx) :
    val_main_v3 (F := Ideal) x0 i = bit (x0 (ix3 (0 : Fin 3) (i 0) (i 1))) (BitVec.ofNat 32 (i 2).val) := by
  rw [val_main_v3_apply, val_main_call0_v4_apply, val_main_call0_v2_apply, val_main_call0_v0_apply, val_main_v2_apply,
    val_main_v1_apply, val_main_call0_v3_apply, val_main_call0_v1_apply]
  have e : idx_main_v1 (idx_main_v2 (idx_main_call0_v0 (idx_main_call0_v2 i))) = ix3 (0 : Fin 3) (i 0) (i 1) :=
    funext fun a => Fin.ext (by
      have h0 : (i 0).val < 128 := (i 0).isLt
      have h1 : (i 1).val < 32 := (i 1).isLt
      match a with
      | ⟨0, _⟩ => rfl
      | ⟨1, _⟩ => show ((i 0).val * 32 + (i 1).val) / 32 % 128 = (i 0).val; omega
      | ⟨2, _⟩ => show ((i 0).val * 32 + (i 1).val) % 32 = (i 1).val; omega)
  rw [e]
  rfl

/-- The reference's one-hot tensor of slot 1 at `(s, b, v)`: the one-hot bit of the token at `(1, s, b)` against the
    word of `v`. -/
theorem onehot1_apply (x0 : (⟨S3x128x32, .i32⟩ : BufTy).Contents (Elt Ideal)) (i : S128x32x32000.Idx) :
    val_main_v7 (F := Ideal) x0 i = bit (x0 (ix3 (1 : Fin 3) (i 0) (i 1))) (BitVec.ofNat 32 (i 2).val) := by
  rw [val_main_v7_apply, val_main_call1_v4_apply, val_main_call1_v2_apply, val_main_call1_v0_apply, val_main_v6_apply,
    val_main_v5_apply, val_main_call1_v3_apply, val_main_call1_v1_apply]
  have e : idx_main_v5 (idx_main_v6 (idx_main_call1_v0 (idx_main_call1_v2 i))) = ix3 (1 : Fin 3) (i 0) (i 1) :=
    funext fun a => Fin.ext (by
      have h0 : (i 0).val < 128 := (i 0).isLt
      have h1 : (i 1).val < 32 := (i 1).isLt
      match a with
      | ⟨0, _⟩ => rfl
      | ⟨1, _⟩ => show ((i 0).val * 32 + (i 1).val) / 32 % 128 = (i 0).val; omega
      | ⟨2, _⟩ => show ((i 0).val * 32 + (i 1).val) % 32 = (i 1).val; omega)
  rw [e]
  rfl

/-- The reference's one-hot tensor of slot 2 at `(s, b, v)`: the one-hot bit of the token at `(2, s, b)` against the
    word of `v`. -/
theorem onehot2_apply (x0 : (⟨S3x128x32, .i32⟩ : BufTy).Contents (Elt Ideal)) (i : S128x32x32000.Idx) :
    val_main_v11 (F := Ideal) x0 i = bit (x0 (ix3 (2 : Fin 3) (i 0) (i 1))) (BitVec.ofNat 32 (i 2).val) := by
  rw [val_main_v11_apply, val_main_call2_v4_apply, val_main_call2_v2_apply, val_main_call2_v0_apply, val_main_v10_apply,
    val_main_v9_apply, val_main_call2_v3_apply, val_main_call2_v1_apply]
  have e : idx_main_v9 (idx_main_v10 (idx_main_call2_v0 (idx_main_call2_v2 i))) = ix3 (2 : Fin 3) (i 0) (i 1) :=
    funext fun a => Fin.ext (by
      have h0 : (i 0).val < 128 := (i 0).isLt
      have h1 : (i 1).val < 32 := (i 1).isLt
      match a with
      | ⟨0, _⟩ => rfl
      | ⟨1, _⟩ => show ((i 0).val * 32 + (i 1).val) / 32 % 128 = (i 0).val; omega
      | ⟨2, _⟩ => show ((i 0).val * 32 + (i 1).val) % 32 = (i 1).val; omega)
  rw [e]
  rfl

/-- The reference's weight tensor at `(s, b, v)` is the n-hot weight of position `(s, b)` on the word of `v`. -/
theorem weight_apply (x0 : (⟨S3x128x32, .i32⟩ : BufTy).Contents (Elt Ideal)) (i : S128x32x32000.Idx) :
    val_main_v12 (F := Ideal) x0 i
      = nhot (x0 (ix3 (0 : Fin 3) (i 0) (i 1))) (x0 (ix3 (1 : Fin 3) (i 0) (i 1))) (x0 (ix3 (2 : Fin 3) (i 0) (i 1)))
          (BitVec.ofNat 32 (i 2).val) := by
  rw [val_main_v12_apply, val_main_v8_apply, val_main_v4_apply, onehot0_apply, onehot1_apply, onehot2_apply,
    val_main_v0_apply, val_main_cst_apply]
  show max (max (max (Ideal.ofBits .f32 0x00000000#32) (bit _ _)) (bit _ _)) (bit _ _) = _
  rw [Ideal.ofBits_zero_f32, max_zero_bit]
  rfl

/-- THE REFERENCE'S VALUE: its result is the embedding of its two arguments. -/
theorem result_eq (x0 : (⟨S3x128x32, .i32⟩ : BufTy).Contents (Elt Ideal)) (x1 : (⟨S32000x256, .f32⟩ : BufTy).Contents (Elt Ideal)) :
    val_main_v13 (F := Ideal) x0 x1 = embed x0 x1 := by
  funext i
  rw [val_main_v13_apply]
  unfold embed
  refine Finset.sum_congr rfl fun k _ => ?_
  rw [weight_apply]
  have er : ridx_main_v13 i k = ix2 k (i 2) := funext fun a => by
    match a with
    | ⟨0, _⟩ => rfl
    | ⟨1, _⟩ => rfl
  rw [er]
  rfl

end Cert.ReferenceIdeal.RefValue

end
-- ==== Proof.lean ====
/- The kernel computes an n-gram bag embedding: for each of 4096 positions (128 x 32), the sum over a vocabulary of
   32000 entries of an n-hot weight (1 when one of the position's three token words is the entry's word, else 0) times
   the entry's row of a 256-feature table. The kernel walks the vocabulary in 25 blocks of 1280 entries, multiplying a
   512 x 1280 weight matrix with the table block and accumulating per row tile; the reference builds the whole
   `[128, 32, 32000]` weight tensor and contracts it with the table at once.

   Over the extended reals both are the same sum: a change of float format is the identity; the two spellings of a
   one-hot bit (a comparison widened and converted signed, or converted unsigned) give the same number 0 or 1; the
   reference's extra maximum with zero changes nothing since a bit is not negative; the kernel's vocabulary word
   `k * 1280 + j` in wrapping 32-bit arithmetic is the word of that natural number, the reference's vocabulary word; and a
   sum over all entries is the sum over the blocks of the sums inside the blocks, addition of extended reals being
   commutative and associative with the infinities included — so the precondition is never opened.

   NHot.lean states the weight and the embedding; Payload.lean reads one grid point's step at an entry; Pieces.lean reads
   what each of the body's three control cases leaves behind; Blocks.lean reads the staged blocks off their arrays;
   Accum.lean is the induction over grid points; Regroup.lean sums the blocks' shares; Final.lean reads the region's result
   array; KernelValue.lean composes the re-laying operations around the region; RefValue.lean reads the reference. The
   two kernels' frames are the generated ones, the reference's frame is its generated run, and the idealization rewrote
   nothing. -/
import proofs.«108991_j11072425689872_1_alg».proof.Defs
import proofs.«108991_j11072425689872_1_alg».proof.Proof.Gen.Kernel
import proofs.«108991_j11072425689872_1_alg».proof.Proof.Gen.Kernel.Skeleton
import proofs.«108991_j11072425689872_1_alg».proof.Proof.Gen.Kernel.Launch
import proofs.«108991_j11072425689872_1_alg».proof.Proof.Gen.Kernel.Points
import proofs.«108991_j11072425689872_1_alg».proof.Proof.Gen.Kernel.Frame
import proofs.«108991_j11072425689872_1_alg».proof.Proof.Gen.KernelIdeal
import proofs.«108991_j11072425689872_1_alg».proof.Proof.Gen.KernelIdeal.Skeleton
import proofs.«108991_j11072425689872_1_alg».proof.Proof.Gen.KernelIdeal.Launch
import proofs.«108991_j11072425689872_1_alg».proof.Proof.Gen.KernelIdeal.Points
import proofs.«108991_j11072425689872_1_alg».proof.Proof.Gen.KernelIdeal.Frame
import proofs.«108991_j11072425689872_1_alg».proof.Proof.Gen.ReferenceIdeal
import proofs.«108991_j11072425689872_1_alg».proof.Proof.Gen.ReferenceIdeal.Run
import proofs.«108991_j11072425689872_1_alg».proof.Proof.Gen.ReferenceIdeal.Read
import proofs.«108991_j11072425689872_1_alg».proof.Proof.Gen.Pre_finite_inputs
import proofs.«108991_j11072425689872_1_alg».proof.Proof.KernelValue
import proofs.«108991_j11072425689872_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the embedding of their arguments, which agree. -/
theorem algebraic : Cert.algebraic_KernelIdeal_ReferenceIdeal := by
  intro m ρ m' ρ' _ hagree
  refine ⟨fun c => NGram.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
